-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1600000 : Shape := ⟨1, ![1600000]⟩
abbrev S4096x1 : Shape := ⟨2, ![4096, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x4096 .f32) (main_arg1 : FVec F S1600000 .f32) (main_arg2 : FVec F S4096x1 .f32) (main_arg3 : IVec S1600000 32) (main_arg4 : IVec S1600000 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4096x4096 : Shape := ⟨2, ![4096, 4096]⟩
abbrev S1600000 : Shape := ⟨1, ![1600000]⟩
abbrev S4096x1 : Shape := ⟨2, ![4096, 1]⟩
abbrev S_ : Shape := ⟨0, ![]⟩
abbrev S1600000x1 : Shape := ⟨2, ![1600000, 1]⟩
abbrev S1600000x2 : Shape := ⟨2, ![1600000, 2]⟩
abbrev S1024x1024 : Shape := ⟨2, ![1024, 1024]⟩
abbrev S1024x1 : Shape := ⟨2, ![1024, 1]⟩

abbrev nBuf : Space → Nat
  | .hbm => 28
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096x1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .bf16⟩
  | .hbm, ⟨26, _⟩ => ⟨S4096x4096, .bf16⟩
  | .hbm, ⟨27, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  scatter_S4096x4096_S1600000x2_S1600000_n_01_01_1_wf : ScatterDims.WF S4096x4096 S1600000x2 S1600000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1600000 : Shape := ⟨1, ![1600000]⟩
abbrev S4096x1 : Shape := ⟨2, ![4096, 1]⟩
abbrev S_ : Shape := ⟨0, ![]⟩
abbrev S1600000x1 : Shape := ⟨2, ![1600000, 1]⟩
abbrev S1600000x2 : Shape := ⟨2, ![1600000, 2]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096x1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S4096x1_S4096x4096_0_1 : S4096x1.BroadcastsInDim S4096x4096 (![0, 1] : Fin 2 → Fin S4096x4096.rank)
  scatter_S4096x4096_S1600000x2_S1600000_n_01_01_1_wf : ScatterDims.WF S4096x4096 S1600000x2 S1600000 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point leaves behind, as values.

  The body keeps a running block product in a scratch tile. At the first point of a run along the contraction axis it
  stores the zero tile and then adds the product of the two operand blocks to it; at every later point it adds the
  product of that point's blocks to what the scratch held; at the last point of the run it also stores, into the
  output tile, the scratch plus the bias column, clamped below at zero. Each store covers its whole tile, so what a
  tile holds afterwards is the stored value, a pure function of the loaded blocks.
-/
import proofs.«174041_j63522566308105_1_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point of a run leaves the old scratch plus the block product in the scratch tile. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .bf16) (x2 : Vec F S1024x1 .f32) (acc : Vec F S1024x1024 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h7.read_unread, View.ld_unit_zero (S := S1024x1024) hz]

/-- So does the last point of a run. -/
theorem scratch_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1024x1 .f32) (acc : Vec F S1024x1024 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero (S := S1024x1024) hz]
  simp only [View.readAt_eq_ld, h3.read_unread, h4.read_unread, h5.read_unread, h7.read_unread,
    View.ld_unit_zero (S := S1024x1024) hz, View.ld_unit_zero (S := S1024x1) hz]

/-- The last point of a run stores into the output tile the new scratch plus the bias column, clamped below at zero. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1024x1 .f32) (acc : Vec F S1024x1024 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread,
    View.ld_unit_zero (S := S1024x1024) hz, View.ld_unit_zero (S := S1024x1) hz]

/-- The first point of a run stores the zero tile, reads it back, and leaves zero plus the block product. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .bf16) (x2 : Vec F S1024x1 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread,
    View.ld_unit_zero (S := S1024x1024) hz, View.ld_unit_zero (S := S1024x1) hz]

end Cert.KernelIdeal.Tile

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Payload.lean ====
/-
  The body's three stored values, read at an entry, on the extended reals.

  The zero tile is 0 at every entry. A step of the running product adds, at entry (p, r), the sum over k of
  a(p, k) * b(k, r) of the two operand blocks to what the scratch held there: the product into a zero accumulator is
  that sum, and a cast of a tile to its own shape changes nothing. The output tile at (p, r) is the scratch there plus
  the bias column's entry of row p (the column is copied along the row), clamped below at zero.
-/
import proofs.«174041_j63522566308105_1_alg».proof.Proof.Gen.KernelIdeal.Skeleton
import proofs.«174041_j63522566308105_1_alg».proof.Proof.LibMatmul
import proofs.«174041_j63522566308105_1_alg».proof.Proof.LibKeepdims
import Idealize.ShloMosaic.Lib.Pipeline.Value
import Idealize.ShloMosaic.Lib.ValueIdx
import Idealize.ShloMosaic.PureOps.Ideal.Laws

open scoped BigOperators

noncomputable section

namespace Cert.KernelIdeal.Tile

open Cert.KernelIdeal Cert.KernelIdeal.Gen Idealize.ShloMosaic Idealize.ShloMosaic.ValueIdx

/-- The contraction of the body's product is the plain one: rows by contraction, contraction by columns. -/
theorem dot_eq_plain : dot_S1024x1024_S1024x1024_S1024x1024_1_0_0_1_n_n = DotDims.plain 1024 1024 1024 := rfl

/-- The zero tile at an entry. -/
theorem zero_tile_apply (y : S1024x1024.Idx) : k0_pay1 (F := Ideal) y = Ideal.ofBits .f32 0x00000000#32 := by
  unfold k0_pay1
  simp only [shapeCast_self]
  rfl

/-- The product of two blocks at an entry: its row of the first against its column of the second. -/
def blockProd (a b : Vec Ideal S1024x1024 .bf16) (y : S1024x1024.Idx) : EReal :=
  ∑ k : Fin 1024, a (ix2 (y 0) k) * b (ix2 k (y 1))

/-- The product of two blocks at entry (p, r), from the blocks' entries along row p and column r. -/
theorem blockProd_eq (a b : Vec Ideal S1024x1024 .bf16) (p r : Fin 1024) (fa fb : Fin 1024 → EReal)
    (ha : ∀ k, a (ix2 p k) = fa k) (hb : ∀ k, b (ix2 k r) = fb k) :
    blockProd a b (ix2 p r) = ∑ k : Fin 1024, fa k * fb k := by
  unfold blockProd
  refine Finset.sum_congr rfl fun k _ => ?_
  rw [← ha k, ← hb k]

/-- One step of the running product at an entry: what the scratch held there plus the blocks' product there. -/
theorem step_apply (acc : Vec Ideal S1024x1024 .f32) (x0 x1 : Vec Ideal S1024x1024 .bf16) (y : S1024x1024.Idx) :
    k0_pay2 acc x0 x1 y = acc y + blockProd x0 x1 y := by
  obtain ⟨p, r, rfl⟩ : ∃ (p r : Fin 1024), y = ix2 p r := ⟨y 0, y 1, eq_ix2 y⟩
  unfold k0_pay2
  simp only [shapeCast_self]
  rw [dot_eq_plain]
  exact congrArg (acc (ix2 p r) + ·) (Cert.MatOps.matmul_plain_zero_apply none x0 x1 p r)

/-- The output tile at entry (p, r), from the scratch and the bias column. -/
theorem out_apply (s : Vec Ideal S1024x1024 .f32) (b : Vec Ideal S1024x1 .f32) (p r : Fin 1024) :
    k0_pay3 s b (ix2 p r) = max (s (ix2 p r) + b (ix2 p (0 : Fin 1))) (Ideal.ofBits .f32 0x00000000#32) := by
  unfold k0_pay3
  show max (s (ix2 p r) + broadcastTo S1024x1024 b broadcasts_S1024x1_S1024x1024 (ix2 p r)) _ = _
  rw [Idealize.ShloMosaic.Keepdims.broadcastTo_a1_ab_apply b broadcasts_S1024x1_S1024x1024 p r 0]
  rfl

end Cert.KernelIdeal.Tile

end
-- ==== Proof.Blocks.lean ====
/-
  Which entries of the arrays a grid point's blocks hold.

  The 64 grid points are numbered row tile by row tile, then column tile, then run position: point t has row tile
  t / 16, column tile (t / 4) % 4 and position t % 4 along the contraction axis. At point t the left operand's block is
  block (t / 16, t % 4) of the weights, the right operand's block (t % 4, (t / 4) % 4) of the input, the bias block is
  rows 1024 * (t / 16) onward of the bias column, and the output block is block (t / 16, (t / 4) % 4). Entry (p, k) of
  block (I, K) of an array is entry (1024 * I + p, 1024 * K + k) of the array.
-/
import proofs.«174041_j63522566308105_1_alg».proof.Proof.Gen.KernelIdeal.Frame
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps in closed form, decided over the grid's 64 points. -/
theorem idx_closed : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = 0
    ∧ win0_3.index t (0 : Fin 2) = t.val / 16 ∧ win0_3.index t (1 : Fin 2) = t.val / 4 % 4 :=
  (by decide +kernel : ∀ t : Fin grid0.N, _)

/-- The left operand's block at point t, at entry (p, k): the weights at row 1024 * (t / 16) + p, column
    1024 * (t % 4) + k. -/
theorem lhs_block_apply (c : Dev nD) (t : Fin cfg0.N) (p k : Fin 1024) (i : S4096x4096.Idx)
    (h0 : (i 0).val = 1024 * (t.val / 16) + p.val) (h1 : (i 1).val = 1024 * (t.val % 4) + k.val) :
    (iblk m c 0 t : Vec F S1024x1024 .bf16) (ix2 p k) = V m c main_v15 i := by
  unfold iblk
  rw [View.read_apply]
  show V m c main_v15 _ = V m c main_v15 i
  congr 1
  obtain ⟨e0, e1, -⟩ := idx_closed t
  funext a
  apply Fin.ext
  match a with
  | ⟨0, _⟩ => show win0_0.index t 0 * 1024 + 1 * p.val = (i 0).val; omega
  | ⟨1, _⟩ => show win0_0.index t 1 * 1024 + 1 * k.val = (i 1).val; omega

/-- The right operand's block at point t, at entry (k, r): the input at row 1024 * (t % 4) + k, column
    1024 * ((t / 4) % 4) + r. -/
theorem rhs_block_apply (c : Dev nD) (t : Fin cfg0.N) (k r : Fin 1024) (i : S4096x4096.Idx)
    (h0 : (i 0).val = 1024 * (t.val % 4) + k.val) (h1 : (i 1).val = 1024 * (t.val / 4 % 4) + r.val) :
    (iblk m c 1 t : Vec F S1024x1024 .bf16) (ix2 k r) = V m c main_v16 i := by
  unfold iblk
  rw [View.read_apply]
  show V m c main_v16 _ = V m c main_v16 i
  congr 1
  obtain ⟨-, -, e0, e1, -⟩ := idx_closed t
  funext a
  apply Fin.ext
  match a with
  | ⟨0, _⟩ => show win0_1.index t 0 * 1024 + 1 * k.val = (i 0).val; omega
  | ⟨1, _⟩ => show win0_1.index t 1 * 1024 + 1 * r.val = (i 1).val; omega

/-- The bias block at point t, at entry (p, 0): the bias column at row 1024 * (t / 16) + p. -/
theorem bias_block_apply (c : Dev nD) (t : Fin cfg0.N) (p : Fin 1024) (u : Fin 1) (i : S4096x1.Idx)
    (h0 : (i 0).val = 1024 * (t.val / 16) + p.val) :
    (iblk m c 2 t : Vec F S1024x1 .f32) (ix2 p u) = V m c main_arg2 i := by
  unfold iblk
  rw [View.read_apply]
  show V m c main_arg2 _ = V m c main_arg2 i
  congr 1
  obtain ⟨-, -, -, -, e0, e1, -⟩ := idx_closed t
  funext a
  apply Fin.ext
  have hu : u.val = 0 := by omega
  have hi : (i 1).val = 0 := by have : (i 1).val < 1 := (i 1).isLt; omega
  match a with
  | ⟨0, _⟩ => show win0_2.index t 0 * 1024 + 1 * p.val = (i 0).val; omega
  | ⟨1, _⟩ => show win0_2.index t 1 * 1 + 1 * u.val = (i 1).val; omega

end Cert.KernelIdeal.Tile

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Spec.lean ====
/-
  The layer, as one function of its arrays, and the one law of sums the two programs differ by.

  For a weight matrix W [4096, 4096], an input X [4096, 4096] and a bias column b [4096, 1] the layer's output at
  (i, j) is max(sum over k of W(i, k) * X(k, j) + b(i, 0), 0) on the extended reals. One program takes the sum over k
  in one piece; the other cuts the range of k into four runs of 1024 and adds the four partial sums to a zero, one
  after the other. Addition of extended reals is commutative and associative (the conventions at the infinities do not
  break that), so the two agree at every input: no finiteness is needed.
-/
import Idealize.ShloMosaic.PureOps.Ideal.Laws
import Idealize.ShloMosaic.Lib.ValueIdx
import proofs.«174041_j63522566308105_1_alg».proof.Proof.LibBlockSum

open scoped BigOperators

noncomputable section

namespace Cert.DenseRelu

open Idealize.ShloMosaic Idealize.ShloMosaic.ValueIdx

/-- The layer at an index: the row of W against the column of X, plus the row's bias, clamped below at zero. -/
def layer (W X : (⟨2, ![4096, 4096]⟩ : Shape).Idx → EReal) (b : (⟨2, ![4096, 1]⟩ : Shape).Idx → EReal) :
    (⟨2, ![4096, 4096]⟩ : Shape).Idx → EReal :=
  fun i => max ((∑ k : Fin 4096, W (ix2 (i 0) k) * X (ix2 k (i 1))) + b (ix2 (i 0) (0 : Fin 1)))
    (Ideal.ofBits .f32 0x00000000#32)

/-- Position k of run s, as a number below 4096. -/
abbrev runPos (s : Fin 4) (k : Fin 1024) : Fin 4096 := ⟨1024 * s.val + k.val, by have := s.isLt; have := k.isLt; omega⟩

/-- A zero, plus the partial sums of four runs of 1024 (given as a function g of the run's number), is the sum over
    all 4096 positions. -/
theorem zero_add_runs {M : Type*} [AddCommMonoid M] (f : Fin 4096 → M) (g : ℕ → M)
    (hg : ∀ s : Fin 4, g s.val = ∑ k : Fin 1024, f (runPos s k)) :
    (0 : M) + ∑ s ∈ Finset.range 4, g s = ∑ k : Fin 4096, f k := by
  rw [zero_add, Finset.sum_range, Cert.BlockSum.sum_fin_blocks (A := 4) (B := 1024) rfl f]
  exact Finset.sum_congr rfl fun s _ => hg s

/-- An entry computed run by run is the layer's: if s is a zero plus four partial sums g 0 .. g 3, each partial sum
    the products over its run of 1024 positions of row (i 0) of W against column (i 1) of X, and v is the bias of
    row (i 0), then max(s + v, 0) is the layer at i. -/
theorem layer_of_runs (W X : (⟨2, ![4096, 4096]⟩ : Shape).Idx → EReal) (b : (⟨2, ![4096, 1]⟩ : Shape).Idx → EReal)
    (i : (⟨2, ![4096, 4096]⟩ : Shape).Idx) (s v : EReal) (g : ℕ → EReal)
    (hs : s = 0 + ∑ q ∈ Finset.range 4, g q)
    (hg : ∀ q : Fin 4, g q.val = ∑ k : Fin 1024, W (ix2 (i 0) (runPos q k)) * X (ix2 (runPos q k) (i 1)))
    (hv : v = b (ix2 (i 0) (0 : Fin 1))) :
    max (s + v) (Ideal.ofBits .f32 0x00000000#32) = layer W X b i := by
  unfold layer
  rw [hs, hv, zero_add_runs (fun k => W (ix2 (i 0) k) * X (ix2 k (i 1))) g hg]

end Cert.DenseRelu

end
-- ==== Proof.KernelValue.lean ====
/-
  What the kernel's result array holds: the layer of the arrays the region finds, entry by entry.

  The scratch tile after a point of a run is the zero tile plus the block products of the run's points so far (a fold
  over the run, unrolled here into a sum). The last point of a run, position 3, writes its output tile back: the
  scratch after that point plus the bias column, clamped below at zero. At entry (p, r) of the tile of row tile I and
  column tile J the four block products are the partial sums over the four runs of 1024 positions of row 1024 * I + p
  of the weights against column 1024 * J + r of the input; a zero plus the four partial sums is the whole sum, so the
  tile is the layer's block (I, J). The sixteen written tiles cover the result array.
-/
import proofs.«174041_j63522566308105_1_alg».proof.Proof.Gen.KernelIdeal.Value
import proofs.«174041_j63522566308105_1_alg».proof.Proof.Pieces
import proofs.«174041_j63522566308105_1_alg».proof.Proof.Payload
import proofs.«174041_j63522566308105_1_alg».proof.Proof.Blocks
import proofs.«174041_j63522566308105_1_alg».proof.Proof.Spec

open scoped BigOperators

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)

section AnyFloat

variable {F : FTy → Type} [FloatOps F]
variable (m : (ℓ : Loc nD τ sig) → Buf (Elt F) ℓ)

/-- At the last point of a run the output tile is the stored function of the scratch after that point and of the
    bias block. -/
theorem out_of_scratch (c : Dev nD) (t : Fin cfg0.N) (h0 : ¬t.val % 4 = 0) (h1 : t.val % 4 = 3) :
    (outsAt0 m c t.val t.isLt).1 = k0_pay3 (outsAt0 m c t.val t.isLt).2 (iblk m c 2 t) := by
  rw [outsAt0_C m c t h0 h1]
  dsimp only
  rw [out_C, scratch_C]

end AnyFloat

variable (m : (ℓ : Loc nD τ sig) → Buf (Elt Ideal) ℓ)

/-- What point n adds to entry y of the scratch tile: the product of its two operand blocks there (0 past the grid). -/
def addend (c : Dev nD) (n : ℕ) (y : S1024x1024.Idx) : EReal :=
  if h : n < cfg0.N then blockProd (iblk m c 0 ⟨n, h⟩) (iblk m c 1 ⟨n, h⟩) y else 0

/-- The scratch tile after the last point of a run, at an entry: zero plus the four points' block products. -/
theorem scratch_apply (c : Dev nD) (t : Fin cfg0.N) (h1 : t.val % 4 = 3) (y : S1024x1024.Idx) :
    (outsAt0 m c t.val t.isLt).2 y = (0 : EReal) + ∑ s ∈ Finset.range 4, addend m c (4 * (t.val / 4) + s) y := by
  refine (congrFun (Cert.KernelIdeal.Value.soutsAt0_0_eq m c t) y).trans ?_
  refine (Pipeline.accAt_add_apply (N := cfg0.N) (ι := S1024x1024.Idx) (β := EReal)
    (fun n h => Cert.KernelIdeal.Value.scAt0_0 m c n h (VS0_0.read (Elt Ideal) VS0_0.junk)) (Cert.KernelIdeal.Value.scAt0_0 m c)
    (fun _ => 0) (addend m c) (4 * (t.val / 4)) 3 ?ha ?hg (t.val % 4) (by omega) _ y).trans ?_
  case ha =>
    intro h i
    have hb0 : 4 * (t.val / 4) % 4 = 0 := Nat.mul_mod_right 4 _
    have hb3 : ¬4 * (t.val / 4) % 4 = 3 := by omega
    unfold Cert.KernelIdeal.Value.scAt0_0
    rw [dif_pos hb0, dif_neg hb3, scratch_A]
    rw [step_apply, zero_tile_apply, Ideal.ofBits_zero_f32]
    unfold addend
    rw [dif_pos h]
  case hg =>
    intro n h acc i hlo hhi
    have hn0 : ¬n % 4 = 0 := by omega
    unfold Cert.KernelIdeal.Value.scAt0_0
    rw [dif_neg hn0]
    by_cases h3 : n % 4 = 3
    · rw [dif_pos h3, scratch_C, step_apply]
      unfold addend
      rw [dif_pos h]
    · rw [dif_neg h3, scratch_B, step_apply]
      unfold addend
      rw [dif_pos h]
  rw [h1]

end Cert.KernelIdeal.Tile

end
-- ==== Proof.KernelTile.lean ====
/-
  One written output tile is one block of the layer.

  At the last point of the run of row tile I and column tile J, entry (p, r) of the output tile is the scratch there
  plus the bias of row 1024 * I + p, clamped below at zero; the scratch there is a zero plus the four points' block
  products; and the block product of the run's point number q is the sum, over the 1024 positions of run q, of the
  weights' row 1024 * I + p against the input's column 1024 * J + r. That is the layer at (1024 * I + p, 1024 * J + r).
-/
import proofs.«174041_j63522566308105_1_alg».proof.Proof.KernelValue

open scoped BigOperators

noncomputable section

namespace Cert.KernelIdeal.Tile

open Cert.KernelIdeal Cert.KernelIdeal.Gen Idealize.ShloMosaic Idealize.ShloMosaic.TcCoe Idealize.SL.Sem
open Idealize.ShloMosaic.ValueIdx Cert.DenseRelu

variable (m : (ℓ : Loc nD τ sig) → Buf (Elt Ideal) ℓ)

/-- The block product of point number q of the run that point t belongs to, at entry (p, r): the products over run
    q's positions of the weights' row against the input's column, A and B being the arrays the region finds. -/
theorem run_product (c : Dev nD) (t : Fin cfg0.N) (q : Fin 4) (p r : Fin 1024) (i : S4096x4096.Idx)
    (A B : S4096x4096.Idx → EReal) (hA : A = V m c main_v15) (hB : B = V m c main_v16)
    (hr : (i 0).val = 1024 * (t.val / 16) + p.val) (hc : (i 1).val = 1024 * (t.val / 4 % 4) + r.val) :
    addend m c (4 * (t.val / 4) + q.val) (ix2 p r)
      = ∑ k : Fin 1024, A (ix2 (i 0) (runPos q k)) * B (ix2 (runPos q k) (i 1)) := by
  subst hA hB
  have hN : cfg0.N = 64 := N_0
  have ht : t.val < 64 := lt_of_lt_of_eq t.isLt hN
  have hq : q.val < 4 := q.isLt
  have hlt : 4 * (t.val / 4) + q.val < cfg0.N := by omega
  unfold addend
  rw [dif_pos hlt]
  exact blockProd_eq (iblk m c 0 ⟨4 * (t.val / 4) + q.val, hlt⟩) (iblk m c 1 ⟨4 * (t.val / 4) + q.val, hlt⟩) p r _ _
    (fun k => lhs_block_apply m c ⟨4 * (t.val / 4) + q.val, hlt⟩ p k (ix2 (i 0) (runPos q k))
      (by show (i 0).val = 1024 * ((4 * (t.val / 4) + q.val) / 16) + p.val; omega)
      (by show 1024 * q.val + k.val = 1024 * ((4 * (t.val / 4) + q.val) % 4) + k.val; omega))
    (fun k => rhs_block_apply m c ⟨4 * (t.val / 4) + q.val, hlt⟩ k r (ix2 (runPos q k) (i 1))
      (by show 1024 * q.val + k.val = 1024 * ((4 * (t.val / 4) + q.val) % 4) + k.val; omega)
      (by show (i 1).val = 1024 * ((4 * (t.val / 4) + q.val) / 4 % 4) + r.val; omega))

/-- The output tile the last point of a run writes, at an entry, is the layer at the entry's place in the array. -/
theorem tile_eq (c : Dev nD) (t : Fin cfg0.N) (h1 : t.val % 4 = 3) (y : S1024x1024.Idx) (i : S4096x4096.Idx)
    (hr : (i 0).val = 1024 * (t.val / 16) + (y 0).val) (hc : (i 1).val = 1024 * (t.val / 4 % 4) + (y 1).val) :
    k0_pay3 (outsAt0 m c t.val t.isLt).2 (iblk m c 2 t) y
      = layer (V m c main_v15) (V m c main_v16) (V m c main_arg2) i := by
  obtain ⟨p, r, rfl⟩ : ∃ (p r : Fin 1024), y = ix2 p r := ⟨y 0, y 1, eq_ix2 y⟩
  refine (out_apply (outsAt0 m c t.val t.isLt).2 (iblk m c 2 t) p r).trans ?_
  exact layer_of_runs (V m c main_v15) (V m c main_v16) (V m c main_arg2) i _ _
    (fun n => addend m c (4 * (t.val / 4) + n) (ix2 p r))
    (scratch_apply m c t h1 (ix2 p r))
    (fun q => run_product m c t q p r i (V m c main_v15) (V m c main_v16) rfl rfl hr hc)
    (bias_block_apply m c t p 0 (ix2 (i 0) (0 : Fin 1)) hr)

end Cert.KernelIdeal.Tile

end
-- ==== Proof.KernelArray.lean ====
/-
  The kernel's result array is the layer of the arrays the region finds.

  Only the last point of each run of four writes its output tile back; the tile of the run of row tile I and column
  tile J is block (I, J) of the layer, and the sixteen blocks cover the [4096, 4096] result: entry (a, b) lies in the
  block of I = a / 1024, J = b / 1024, written by point 16 * I + 4 * J + 3.
-/
import proofs.«174041_j63522566308105_1_alg».proof.Proof.KernelTile

noncomputable section

namespace Cert.KernelIdeal.Tile

open Cert.KernelIdeal Cert.KernelIdeal.Gen Idealize.ShloMosaic Idealize.ShloMosaic.TcCoe Idealize.SL.Sem
open Idealize.ShloMosaic.ValueIdx Cert.DenseRelu
open Idealize.ShloMosaic.Pipeline (Dat)

variable (m : (ℓ : Loc nD τ sig) → Buf (Elt Ideal) ℓ)

/-- A tile whose every entry is the entry of an array G at the entry's place in the point's output block is that
    block of G, read back. -/
theorem block_of_entries (c : Dev nD) (t : Fin cfg0.N) (X : Vec Ideal S1024x1024 .f32)
    (G : Buf (Elt Ideal) ((c : Thread nD τ).loc main_v17))
    (h : ∀ j : ((cfg0.win 3).xblock (grid0.coords t)).Idx,
      X ((cfg0.win 3).xinj (grid0.coords t) j) = G (((cfg0.win 3).blk t).view.emb j)) :
    (cfg0.win 3).cut (grid0.coords t) X = ((cfg0.win 3).blk t).view.read (Elt Ideal) G := by
  funext j
  rw [View.read_apply]
  exact h j

/-- What a writing point writes back is its block of the layer of the arrays the region finds. -/
theorem flushed_eq (c : Dev nD) (t : Fin cfg0.N) (hf : (cfg0.win 3).flush t = true) :
    (dats m 0 c).flushed 3 t = ((cfg0.win 3).blk t).view.read (Elt Ideal) (layer (V m c main_v15) (V m c main_v16) (V m c main_arg2)) := by
  have h1 : t.val % 4 = 3 := (flush0_3 t).mp hf
  have h0 : ¬t.val % 4 = 0 := by omega
  rw [Cert.KernelIdeal.Value.flushed3, out_of_scratch m c t h0 h1]
  obtain ⟨-, -, -, -, -, -, e0, e1⟩ := idx_closed t
  refine block_of_entries c t (k0_pay3 (outsAt0 m c t.val t.isLt).2 (iblk m c 2 t)) (layer (V m c main_v15) (V m c main_v16) (V m c main_arg2)) fun j => ?_
  refine tile_eq m c t h1 ((cfg0.win 3).xinj (grid0.coords t) j) (((cfg0.win 3).blk t).view.emb j) ?_ ?_
  · show win0_3.index t 0 * 1024 + 1 * (j 0).val = 1024 * (t.val / 16) + (j 0).val
    omega
  · show win0_3.index t 1 * 1024 + 1 * (j 1).val = 1024 * (t.val / 4 % 4) + (j 1).val
    omega

/-- An entry of the result array lies in a point's output block iff each coordinate lies in the block's range. -/
theorem mem_out_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v17).slice (win0_3.rect t)).set ↔ _
  rw [View.set_slice_whole, Rect.mem_set_unit]
  exact Iff.rfl

/-- Every entry (a, b) of the result array is written by the last point of the run of row tile a / 1024 and column
    tile b / 1024. -/
theorem covered (i : S4096x4096.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 4096 := (i 1).isLt
  obtain ⟨tv, htv⟩ : ∃ tv : ℕ, tv = 16 * ((i 0).val / 1024) + 4 * ((i 1).val / 1024) + 3 := ⟨_, rfl⟩
  have hlt : tv < cfg0.N := by omega
  refine ⟨⟨tv, hlt⟩, (flush0_3 ⟨tv, hlt⟩).mpr (by show tv % 4 = 3; omega), ?_⟩
  rw [mem_out_block]
  obtain ⟨-, -, -, -, -, -, e0, e1⟩ := idx_closed ⟨tv, hlt⟩
  have e0' : win0_3.index ⟨tv, hlt⟩ 0 = tv / 16 := e0
  have e1' : win0_3.index ⟨tv, hlt⟩ 1 = tv / 4 % 4 := e1
  intro a
  match a with
  | ⟨0, _⟩ =>
    show win0_3.index ⟨tv, hlt⟩ 0 * 1024 ≤ (i 0).val ∧ (i 0).val < win0_3.index ⟨tv, hlt⟩ 0 * 1024 + 1024
    rw [e0']; omega
  | ⟨1, _⟩ =>
    show win0_3.index ⟨tv, hlt⟩ 1 * 1024 ≤ (i 1).val ∧ (i 1).val < win0_3.index ⟨tv, hlt⟩ 1 * 1024 + 1024
    rw [e1']; omega

/-- So the result array ends holding the layer of the arrays the region finds. -/
theorem final (c : Dev nD) : (dats m 0 c).arrAt 3 cfg0.N = layer (V m c main_v15) (V m c main_v16) (V m c main_arg2) :=
  (dats m 0 c).arrAt_eq_of_cover 3 (layer (V m c main_v15) (V m c main_v16) (V m c main_arg2)) (flushed_eq m c) covered

/-- The kernel's run, read: the result array at the layer of the arrays the region finds, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v17) = layer (V m c main_v15) (V m c main_v16) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Tile

end
-- ==== Proof.HostPrefix.lean ====
/-
  What the region finds in its two matrix operands.

  Before the region, the program builds the dense weights from the coordinate list: a negative row or column number
  is moved up by 4096, the two numbers are paired, and each value is added into a zero matrix at its pair (values
  that share a pair are summed). The weights, and the input matrix, are then changed to a narrower float format, which
  on the extended reals changes nothing. The region's left operand is that matrix of weights, its right operand the
  input.
-/
import proofs.«174041_j63522566308105_1_alg».proof.Proof.Gen.KernelIdeal.Frame
import Idealize.ShloMosaic.Lib.StableHlo.Run

noncomputable section

namespace Cert.KernelIdeal.Tile

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The dense weights: the values x1 added into a zero matrix at the (row, column) pairs x3, x4, a negative number
    moved up by 4096 first. -/
def weights (x1 : (⟨S1600000, .f32⟩ : BufTy).Contents (Elt F)) (x3 x4 : (⟨S1600000, .i32⟩ : BufTy).Contents (Elt F)) :
    (⟨S4096x4096, .f32⟩ : BufTy).Contents (Elt F) :=
  Host.scatterAdd scatter_S4096x4096_S1600000x2_S1600000_n_01_01_1
    (broadcastInDim S4096x4096 ![] bcast_S_S4096x4096 (constant S_ .f32 0x00000000#32))
    (concatenate S1600000x2 1 [⟨S1600000x1, (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 4096#32))) x3))⟩, ⟨S1600000x1, (broadcastInDim S1600000x1 ![0] bcast_S1600000_S1600000x1_0 (select (cmpi .slt x4 (broadcastInDim S1600000 ![] bcast_S_S1600000 (constantI S_ 32 0#32))) (addi x4 (broadcastInDim S1600000 ![] bcast_S_S1600000 (constantI S_ 32 4096#32))) x4))⟩] concatenates_S1600000x1_S1600000x1_S1600000x2_d1)
    x1

set_option maxHeartbeats 2000000 in
/-- The region's left operand: the dense weights of the argument arrays, in the narrower format. -/
theorem lhs_array (c : Dev nD) :
    (V m c main_v15 : (⟨S4096x4096, .bf16⟩ : BufTy).Contents (Elt F))
      = truncf .bf16 (weights (m ((c : Thread nD τ).loc main_arg1)) (m ((c : Thread nD τ).loc main_arg3)) (m ((c : Thread nD τ).loc main_arg4))) bitsLt_bf16_f32 := by
  dsimp only [V, hostOps0]
  after_results <;> rfl

/-- The region's right operand: the input matrix, in the narrower format. -/
theorem rhs_array (c : Dev nD) :
    (V m c main_v16 : (⟨S4096x4096, .bf16⟩ : BufTy).Contents (Elt F))
      = truncf .bf16 (m ((c : Thread nD τ).loc main_arg0)) bitsLt_bf16_f32 := by
  dsimp only [V, hostOps0]
  after_results <;> rfl

end Cert.KernelIdeal.Tile

end
-- ==== Proof.Bridge.lean ====
/-
  The two programs start from the same dense weights, and the kernel's operands are the weights and the input.

  Both programs build the weights by the same operations of the same three arrays (a negative coordinate moved up by
  4096, the coordinates paired, the values added into a zero matrix at their pairs), so the two terms are one; they are
  compared as written, operation by operation, and the sum the scatter stands for is never opened. A change to a
  narrower float format is the identity on the extended reals, so the kernel's two matrix operands are the weights
  and the input themselves.
-/
import proofs.«174041_j63522566308105_1_alg».proof.Proof.HostPrefix
import proofs.«174041_j63522566308105_1_alg».proof.Proof.Gen.ReferenceIdeal.Read
import proofs.«174041_j63522566308105_1_alg».proof.Proof.Spec

noncomputable section

namespace Cert.Bridge

open Idealize.ShloMosaic Idealize.ShloMosaic.TcCoe Idealize.SL.Sem

/-- The reference's scatter stage is the kernel program's dense weights of the same arrays. -/
theorem weights_eq (x1 : (⟨Cert.KernelIdeal.S1600000, .f32⟩ : BufTy).Contents (Elt Ideal))
    (x3 x4 : (⟨Cert.KernelIdeal.S1600000, .i32⟩ : BufTy).Contents (Elt Ideal)) :
    Cert.ReferenceIdeal.Read.val_main_v14 (F := Ideal) x1 x3 x4 = Cert.KernelIdeal.Tile.weights (F := Ideal) x1 x3 x4 := by
  unfold Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_c_2 Cert.ReferenceIdeal.Read.val_main_v7 Cert.ReferenceIdeal.Read.val_main_v6 Cert.ReferenceIdeal.Read.val_main_c_1 Cert.ReferenceIdeal.Read.val_main_v5 Cert.ReferenceIdeal.Read.val_main_v4 Cert.ReferenceIdeal.Read.val_main_v3 Cert.ReferenceIdeal.Read.val_main_c_0 Cert.ReferenceIdeal.Read.val_main_v2 Cert.ReferenceIdeal.Read.val_main_v1 Cert.ReferenceIdeal.Read.val_main_c Cert.ReferenceIdeal.Read.val_main_v0 Cert.ReferenceIdeal.Read.val_main_cst Cert.KernelIdeal.Tile.weights
  rfl

/-- On the extended reals a change of float format leaves an array as it was. -/
theorem truncf_id {s : Shape} {φ ψ : FTy} (x : FVec Ideal s φ) (h : ψ.bits < φ.bits) : truncf ψ x h = x := rfl

/-- The layer of the arrays the kernel's region finds is the layer of the dense weights of the argument arrays, the
    input and the bias. -/
theorem region_layer (m : (ℓ : Loc Cert.KernelIdeal.nD Cert.KernelIdeal.τ Cert.KernelIdeal.sig) → Buf (Elt Ideal) ℓ)
    (c : Dev Cert.KernelIdeal.nD) :
    Cert.DenseRelu.layer (Cert.KernelIdeal.Gen.V m c Cert.KernelIdeal.main_v15) (Cert.KernelIdeal.Gen.V m c Cert.KernelIdeal.main_v16)
        (Cert.KernelIdeal.Gen.V m c Cert.KernelIdeal.main_arg2)
      = Cert.DenseRelu.layer
          (Cert.KernelIdeal.Tile.weights (m ((c : Thread Cert.KernelIdeal.nD Cert.KernelIdeal.τ).loc Cert.KernelIdeal.main_arg1))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  rw [Cert.KernelIdeal.Tile.lhs_array, Cert.KernelIdeal.Tile.rhs_array, Cert.KernelIdeal.Gen.V_main_arg2, truncf_id, truncf_id]

end Cert.Bridge

end
-- ==== Proof.RefValue.lean ====
/-
  The reference computes the layer of its dense weights, its input and its bias.

  Its last operations are one contraction of the weights against the input over all 4096 positions, the bias column
  copied along each row and added, and a maximum with a zero matrix: at entry (i, j) that is the layer's value,
  operation by operation.
-/
import proofs.«174041_j63522566308105_1_alg».proof.Proof.Gen.ReferenceIdeal.Read
import proofs.«174041_j63522566308105_1_alg».proof.Proof.Spec

open scoped BigOperators

noncomputable section

namespace Cert.ReferenceIdeal.Layer

open Cert.ReferenceIdeal Cert.ReferenceIdeal.Gen Cert.ReferenceIdeal.Read Idealize.ShloMosaic Idealize.ShloMosaic.ValueIdx

theorem lidx_eq (i : S4096x4096.Idx) (k : Fin 4096) : lidx_main_v15 i k = ix2 (i 0) k :=
  funext fun a => Fin.ext (by match a with | ⟨0, _⟩ => rfl | ⟨1, _⟩ => rfl)

theorem ridx_eq (i : S4096x4096.Idx) (k : Fin 4096) : ridx_main_v15 i k = ix2 k (i 1) :=
  funext fun a => Fin.ext (by match a with | ⟨0, _⟩ => rfl | ⟨1, _⟩ => rfl)

theorem bidx_eq (i : S4096x4096.Idx) : idx_main_v16 i = ix2 (i 0) (0 : Fin 1) :=
  funext fun a => Fin.ext (by match a with | ⟨0, _⟩ => rfl | ⟨1, _⟩ => rfl)

/-- The reference's result is the layer of its dense weights (its scatter stage), its input and its bias. -/
theorem result_eq (x0 : (⟨S4096x4096, .f32⟩ : BufTy).Contents (Elt Ideal)) (x1 : (⟨S1600000, .f32⟩ : BufTy).Contents (Elt Ideal))
    (x2 : (⟨S4096x1, .f32⟩ : BufTy).Contents (Elt Ideal)) (x3 x4 : (⟨S1600000, .i32⟩ : BufTy).Contents (Elt Ideal)) :
    val_main_v18 (F := Ideal) x0 x1 x2 x3 x4 = Cert.DenseRelu.layer (val_main_v14 (F := Ideal) x1 x3 x4) x0 x2 := by
  funext i
  rw [val_main_v18_apply, val_main_v17_apply, val_main_v15_apply, val_main_v16_apply, val_main_call0_v0_apply,
    val_main_call0_cst_apply]
  simp only [lidx_eq, ridx_eq, bidx_eq, Ideal.addf_def, Ideal.maximumf_def, Ideal.ofBits_def]
  rfl

end Cert.ReferenceIdeal.Layer

end
-- ==== Proof.lean ====
/-
  A sparse fully connected layer with a rectifier: out = max(W · X + b, 0), W the dense [4096, 4096] matrix built from a
  coordinate list (values sharing a coordinate pair are summed), X [4096, 4096], b a [4096, 1] column.

  Both programs build W by the same scatter of the same arguments, so W is one function of the arguments on both
  sides and is never opened. The reference takes W · X as one contraction over all 4096 positions, adds the bias
  column along each row and takes the maximum with zero. The kernel changes W and X to a narrower float format (the
  identity on the extended reals), and computes each [1024, 1024] output tile in a run of four grid points: the first
  zeroes a scratch tile, each of the four adds the product of a [1024, 1024] block of W with a block of X, and the
  last adds the bias column, clamps at zero and writes the tile back. So at entry (i, j) the kernel holds
  max((((0 + s0) + s1) + s2) + s3 + b(i), 0), where s0..s3 are the sums over the four quarters of the contraction
  range, and the reference holds max(s + b(i), 0) with s the whole sum. Addition on the extended reals is commutative
  and associative, so the two are equal at every input; finiteness of the inputs is not used.

  The three frames are the generated ones (the reference's is its generated run with the result dropped); the
  idealization rewrote nothing, so preserves is trivial. For the value claim the kernel's result array is read off
  the generated blockwise run (Pieces, Payload, Blocks, KernelValue, KernelTile, KernelArray), the reference's result
  off its generated run and read-back lemmas (RefValue), and both are the one function Cert.DenseRelu.layer (Spec)
  of the same arrays (HostPrefix, Bridge).
-/
import proofs.«174041_j63522566308105_1_alg».proof.Defs
import proofs.«174041_j63522566308105_1_alg».proof.Proof.Gen.Kernel
import proofs.«174041_j63522566308105_1_alg».proof.Proof.Gen.Kernel.Skeleton
import proofs.«174041_j63522566308105_1_alg».proof.Proof.Gen.Kernel.Launch
import proofs.«174041_j63522566308105_1_alg».proof.Proof.Gen.Kernel.Points
import proofs.«174041_j63522566308105_1_alg».proof.Proof.Gen.Kernel.Frame
import proofs.«174041_j63522566308105_1_alg».proof.Proof.Gen.KernelIdeal
import proofs.«174041_j63522566308105_1_alg».proof.Proof.Gen.KernelIdeal.Skeleton
import proofs.«174041_j63522566308105_1_alg».proof.Proof.Gen.KernelIdeal.Launch
import proofs.«174041_j63522566308105_1_alg».proof.Proof.Gen.KernelIdeal.Points
import proofs.«174041_j63522566308105_1_alg».proof.Proof.Gen.KernelIdeal.Frame
import proofs.«174041_j63522566308105_1_alg».proof.Proof.Gen.ReferenceIdeal
import proofs.«174041_j63522566308105_1_alg».proof.Proof.Gen.Pre_finite_inputs
import proofs.«174041_j63522566308105_1_alg».proof.Proof.Gen.KernelIdeal.Value
import proofs.«174041_j63522566308105_1_alg».proof.Proof.Gen.ReferenceIdeal.Run
import proofs.«174041_j63522566308105_1_alg».proof.Proof.Gen.ReferenceIdeal.Read
import proofs.«174041_j63522566308105_1_alg».proof.Proof.KernelArray
import proofs.«174041_j63522566308105_1_alg».proof.Proof.Bridge
import proofs.«174041_j63522566308105_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the layer of the same weights, input and bias:
    the kernel's result array is the layer of the arrays its region finds, which are the dense weights and the input
    (Bridge); the reference's result is the layer of its scatter stage, its input and its bias (RefValue); the two
    scatter terms are one (Bridge). -/
theorem algebraic : Cert.algebraic_KernelIdeal_ReferenceIdeal := by
  intro m ρ m' ρ' _ hagree
  refine ⟨fun c => Cert.DenseRelu.layer (Cert.KernelIdeal.Gen.V m c Cert.KernelIdeal.main_v15)
    (Cert.KernelIdeal.Gen.V m c Cert.KernelIdeal.main_v16) (Cert.KernelIdeal.Gen.V m c Cert.KernelIdeal.main_arg2),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  show _ = Cert.DenseRelu.layer _ _ _
  rw [Cert.ReferenceIdeal.Read.val_main_v18_eq, Cert.ReferenceIdeal.Layer.result_eq, (hagree c).1, (hagree c).2.1,
    (hagree c).2.2.1, (hagree c).2.2.2.1, (hagree c).2.2.2.2, Cert.Bridge.weights_eq, Cert.Bridge.region_layer]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
